-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S1x256x128 : Shape := ⟨3, ![1, 256, 128]⟩
abbrev S1x128x256 : Shape := ⟨3, ![1, 128, 256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S1x256x128 : S_.BroadcastsInDim S1x256x128 (![] : Fin 0 → Fin S1x256x128.rank)
  reducesTo_S1x256x128_S_d0_1_2 : S1x256x128.ReducesTo [0, 1, 2] S_
  bcast_S_S1x128x256 : S_.BroadcastsInDim S1x128x256 (![] : Fin 0 → Fin S1x128x256.rank)
  reducesTo_S1x128x256_S_d0_1_2 : S1x128x256.ReducesTo [0, 1, 2] S_

variable [Facts]

def fn_part1 {F : FTy → Type} [FloatOps F] (main_arg4 : FVec F S1x128x256 .f32) (main_v13 : IVec S_ 1) (main_v16 : IVec S1x256x128 1) : IVec S_ 1 :=
  let main_c_5 : IVec S_ 1 := constantI S_ 1 1#1
  let main_v17 : IVec S_ 1 := (fun x v => Host.reduce IntOp.andi x v reducesTo_S1x256x128_S_d0_1_2 h_S_) main_v16 main_c_5
  let main_v18 : IVec S_ 1 := andi main_v13 main_v17
  let main_v19 : FVec F S1x128x256 .f32 := Host.absf main_arg4
  let main_cst_6 : FVec F S_ .f32 := constant S_ .f32 0x7F800000#32
  let main_v20 : FVec F S1x128x256 .f32 := broadcastInDim S1x128x256 ![] bcast_S_S1x128x256 main_cst_6
  let main_v21 : IVec S1x128x256 1 := cmpf .olt main_v19 main_v20
  let main_c_7 : IVec S_ 1 := constantI S_ 1 1#1
  let main_v22 : IVec S_ 1 := (fun x v => Host.reduce IntOp.andi x v reducesTo_S1x128x256_S_d0_1_2 h_S_) main_v21 main_c_7
  let main_v23 : IVec S_ 1 := andi main_v18 main_v22
  main_v23

def fn {F : FTy → Type} [FloatOps F] (main_arg0 : FVec F S8x4096x256 .f32) (main_arg1 : FVec F S1x256x128 .f32) (main_arg2 : FVec F S1x256x128 .f32) (main_arg3 : FVec F S1x256x128 .f32) (main_arg4 : FVec F S1x128x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S1x256x128 .f32 := Host.absf main_arg1
  let main_cst_0 : FVec F S_ .f32 := constant S_ .f32 0x7F800000#32
  let main_v5 : FVec F S1x256x128 .f32 := broadcastInDim S1x256x128 ![] bcast_S_S1x256x128 main_cst_0
  let main_v6 : IVec S1x256x128 1 := cmpf .olt main_v4 main_v5
  let main_c_1 : IVec S_ 1 := constantI S_ 1 1#1
  let main_v7 : IVec S_ 1 := (fun x v => Host.reduce IntOp.andi x v reducesTo_S1x256x128_S_d0_1_2 h_S_) main_v6 main_c_1
  let main_v8 : IVec S_ 1 := andi main_v3 main_v7
  let main_v9 : FVec F S1x256x128 .f32 := Host.absf main_arg2
  let main_cst_2 : FVec F S_ .f32 := constant S_ .f32 0x7F800000#32
  let main_v10 : FVec F S1x256x128 .f32 := broadcastInDim S1x256x128 ![] bcast_S_S1x256x128 main_cst_2
  let main_v11 : IVec S1x256x128 1 := cmpf .olt main_v9 main_v10
  let main_c_3 : IVec S_ 1 := constantI S_ 1 1#1
  let main_v12 : IVec S_ 1 := (fun x v => Host.reduce IntOp.andi x v reducesTo_S1x256x128_S_d0_1_2 h_S_) main_v11 main_c_3
  let main_v13 : IVec S_ 1 := andi main_v8 main_v12
  let main_v14 : FVec F S1x256x128 .f32 := Host.absf main_arg3
  let main_cst_4 : FVec F S_ .f32 := constant S_ .f32 0x7F800000#32
  let main_v15 : FVec F S1x256x128 .f32 := broadcastInDim S1x256x128 ![] bcast_S_S1x256x128 main_cst_4
  let main_v16 : IVec S1x256x128 1 := cmpf .olt main_v14 main_v15
  fn_part1 (F := F) main_arg4 main_v13 main_v16
-- ==== Kernel.lean ====
abbrev S8x4096x256 : Shape := ⟨3, ![8, 4096, 256]⟩
abbrev S1x256x128 : Shape := ⟨3, ![1, 256, 128]⟩
abbrev S1x128x256 : Shape := ⟨3, ![1, 128, 256]⟩
abbrev S1x256x256 : Shape := ⟨3, ![1, 256, 256]⟩
abbrev S1x4096x256 : Shape := ⟨3, ![1, 4096, 256]⟩
abbrev S4096x128 : Shape := ⟨2, ![4096, 128]⟩
abbrev S4096x256 : Shape := ⟨2, ![4096, 256]⟩
abbrev S256x128 : Shape := ⟨2, ![256, 128]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S8x4096x256, .f32⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S1x128x256, .f32⟩
  | .hbm, ⟨5, _⟩ => ⟨S1x256x256, .f32⟩
  | .hbm, ⟨6, _⟩ => ⟨S8x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S1x256x128, .f32⟩
  | .local _ .vmem, ⟨3, _⟩ => ⟨S1x256x128, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S4096x128, .bf16⟩
  | .local _ .vmem, ⟨8, _⟩ => ⟨S4096x256, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  reduces_S256x4096_S256 : S256x4096.Reduces [1] S256
  shapeCasts_S256_S256x1 : S256.ShapeCasts S256x1
  broadcasts_S256x1_S256x4096 : S256x1.Broadcasts S256x4096
  shapeCasts_S256x256_S1x256x256 : S256x256.ShapeCasts S1x256x256
  dot_S1x256x128_S1x128x256_S1x256x256_2_1_1_2_0_0_wf : DotDims.WF S1x256x128 S1x128x256 S1x256x256 [2] [1] [1] [2] [0] [0]
  dot_S4096x256_S256x128_S4096x128_1_0_0_1_n_n_wf : DotDims.WF S4096x256 S256x128 S4096x128 [1] [0] [0] [1] [] []
  dot_S4096x256_S256x256_S4096x256_1_0_0_1_n_n_wf : DotDims.WF S4096x256 S256x256 S4096x256 [1] [0] [0] [1] [] []
  dot_S256x256_S256x128_S256x128_1_0_0_1_n_n_wf : DotDims.WF S256x256 S256x128 S256x128 [1] [0] [0] [1] [] []
  dot_S256x128_S4096x128_S256x4096_1_1_0_0_n_n_wf : DotDims.WF S256x128 S4096x128 S256x4096 [1] [1] [0] [0] [] []
  dot_S256x4096_S4096x256_S256x256_1_0_0_1_n_n_wf : DotDims.WF S256x4096 S4096x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x256.size a ≤ S1x4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x4096x256.size a
  hwx0_0 : ∀ i : grid0.Coords, EltTy.bits .f32 = 32 ∨ (Rect.block (s := S8x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S1x256x128.size a
  hwx0_1 : ∀ i : grid0.Coords, EltTy.bits .f32 = 32 ∨ (Rect.block (s := S1x256x128) S1x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S1x256x128.size a
  hwx0_2 : ∀ i : grid0.Coords, EltTy.bits .f32 = 32 ∨ (Rect.block (s := S1x256x128) S1x256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S1x256x256.size a
  hwx0_3 : ∀ i : grid0.Coords, EltTy.bits .f32 = 32 ∨ (Rect.block (s := S1x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S8x4096x256.size a
  hwx0_4 : ∀ i : grid0.Coords, EltTy.bits .f32 = 32 ∨ (Rect.block (s := S8x4096x256) S1x256x256.size (cc0_transform_4 i) (hinb0_4 i)).WholeWords (EltTy.packing .f32)

variable [Facts₀]

def dot_S1x256x128_S1x128x256_S1x256x256_2_1_1_2_0_0 : DotDims S1x256x128 S1x128x256 S1x256x256 where
  lhsContracting := [2]
  rhsContracting := [1]
  lhsNonContracting := [1]
  rhsNonContracting := [2]
  lhsBatch := [0]
  rhsBatch := [0]
  wf := dot_S1x256x128_S1x128x256_S1x256x256_2_1_1_2_0_0_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S1x256x128 : Shape := ⟨3, ![1, 256, 128]⟩
abbrev S1x128x256 : Shape := ⟨3, ![1, 128, 256]⟩
abbrev S_ : Shape := ⟨0, ![]⟩
abbrev S256x128 : Shape := ⟨2, ![256, 128]⟩
abbrev S8x4096x128 : Shape := ⟨3, ![8, 4096, 128]⟩
abbrev S1x256x256 : Shape := ⟨3, ![1, 256, 256]⟩
abbrev S256x256 : Shape := ⟨2, ![256, 256]⟩
abbrev S8x4096x4096 : Shape := ⟨3, ![8, 4096, 4096]⟩
abbrev S8x4096 : Shape := ⟨2, ![8, 4096]⟩
abbrev S8x4096x1 : Shape := ⟨3, ![8, 4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S1x128x256, .f32⟩
  | .hbm, ⟨5, _⟩ => ⟨S_, .f32⟩
  | .hbm, ⟨6, _⟩ => ⟨S256x128, .f32⟩
  | .hbm, ⟨7, _⟩ => ⟨S8x4096x128, .f32⟩
  | .hbm, ⟨8, _⟩ => ⟨S_, .f32⟩
  | .hbm, ⟨9, _⟩ => ⟨S256x128, .f32⟩
  | .hbm, ⟨10, _⟩ => ⟨S8x4096x128, .f32⟩
  | .hbm, ⟨11, _⟩ => ⟨S1x256x256, .f32⟩
  | .hbm, ⟨12, _⟩ => ⟨S_, .f32⟩
  | .hbm, ⟨13, _⟩ => ⟨S256x256, .f32⟩
  | .hbm, ⟨14, _⟩ => ⟨S8x4096x256, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S1x256x128_S256x128_d0 : S1x256x128.ReducesTo [0] S256x128
  h_S_ : 0 < S_.numel
  reducesTo_S1x256x256_S256x256_d0 : S1x256x256.ReducesTo [0] S256x256
  bcast_S_S8x4096x4096 : S_.BroadcastsInDim S8x4096x4096 (![] : Fin 0 → Fin S8x4096x4096.rank)
  reducesTo_S8x4096x4096_S8x4096_d2 : S8x4096x4096.ReducesTo [2] S8x4096
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x4096x256_S256x128_S8x4096x128_2_0_01_1_n_n_wf : DotDims.WF S8x4096x256 S256x128 S8x4096x128 [2] [0] [0, 1] [1] [] []
  dot_S1x256x128_S1x128x256_S1x256x256_2_1_1_2_0_0_wf : DotDims.WF S1x256x128 S1x128x256 S1x256x256 [2] [1] [1] [2] [0] [0]
  dot_S8x4096x256_S256x256_S8x4096x256_2_0_01_1_n_n_wf : DotDims.WF S8x4096x256 S256x256 S8x4096x256 [2] [0] [0, 1] [1] [] []
  dot_S8x4096x128_S8x4096x128_S8x4096x4096_2_2_1_1_0_0_wf : DotDims.WF S8x4096x128 S8x4096x128 S8x4096x4096 [2] [2] [1] [1] [0] [0]
  dot_S8x4096x4096_S8x4096x256_S8x4096x256_2_1_1_2_0_0_wf : DotDims.WF S8x4096x4096 S8x4096x256 S8x4096x256 [2] [1] [1] [2] [0] [0]

variable [Facts₀]

def dot_S8x4096x256_S256x128_S8x4096x128_2_0_01_1_n_n : DotDims S8x4096x256 S256x128 S8x4096x128 where
  lhsContracting := [2]
  rhsContracting := [0]
  lhsNonContracting := [0, 1]
  rhsNonContracting := [1]
  lhsBatch := []
  rhsBatch := []
  wf := dot_S8x4096x256_S256x128_S8x4096x128_2_0_01_1_n_n_wf
def dot_S1x256x128_S1x128x256_S1x256x256_2_1_1_2_0_0 : DotDims S1x256x128 S1x128x256 S1x256x256 where
  lhsContracting := [2]
  rhsContracting := [1]
  lhsNonContracting := [1]
  rhsNonContracting := [2]
  lhsBatch := [0]
  rhsBatch := [0]
  wf := dot_S1x256x128_S1x128x256_S1x256x256_2_1_1_2_0_0_wf
def dot_S8x4096x256_S256x256_S8x4096x256_2_0_01_1_n_n : DotDims S8x4096x256 S256x256 S8x4096x256 where
  lhsContracting := [2]
  rhsContracting := [0]
  lhsNonContracting := [0, 1]
  rhsNonContracting := [1]
  lhsBatch := []
  rhsBatch := []
  wf := dot_S8x4096x256_S256x256_S8x4096x256_2_0_01_1_n_n_wf
def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf

class Facts : Prop extends Facts₀ where

variable [Facts]
-- ==== Proof.Spec.lean ====
/-
  Single-head attention with a low-rank value map, as ONE function of the argument arrays on the extended reals.

  With x : [8, 4096, 256], and weight matrices Wq, Wk : [256, 128], Wv : [256, 256], batch b's rows are projected to
  queries q = x_b · Wq, keys k = x_b · Wk and values v = x_b · Wv; row n's scores against every row m are
  s(n, m) = ⟨q_n, k_m⟩ · 2⁻⁸; the row is shifted by its maximum, exponentiated and divided by the sum of the
  exponentials (a softmax over m); entry (b, n, j) of the result is the softmax-weighted sum of column j of v.
  Nothing here asks the entries to be finite: every operation is the extended reals' own.
-/
import Idealize.ShloMosaic.PureOps.Ideal
import Idealize.ShloMosaic.PureOps.Ideal.Laws

noncomputable section

namespace Cert.Attn

open Idealize.ShloMosaic

/-- The factor a score is multiplied by: the f32 word of 2⁻⁸ = 1/256. -/
abbrev scale : EReal := Ideal.ofBits .f32 0x3B800000#32

/-- The value a row maximum starts from: the f32 word of −∞. -/
abbrev negInf : EReal := Ideal.ofBits .f32 0xFF800000#32

/-- The scaled score of a query row against key row `m`. -/
def score {N H : ℕ} (q : Fin H → EReal) (k : Fin N → Fin H → EReal) (m : Fin N) : EReal :=
  (∑ h : Fin H, q h * k m h) * scale

/-- The maximum of a row of scores, taken from −∞ (and once more against −∞, as both programs do). -/
def rowMax {N : ℕ} (s : Fin N → EReal) : EReal :=
  max negInf ((Finset.univ : Finset (Fin N)).fold max negInf s)

/-- The softmax weight of position `m` in a row of scores: the exponential of the score shifted by the row's maximum,
    over the sum of those exponentials. -/
def weight {N : ℕ} (s : Fin N → EReal) (m : Fin N) : EReal :=
  Ideal.div (Ideal.exp (s m - rowMax s)) (∑ m' : Fin N, Ideal.exp (s m' - rowMax s))

/-- One entry of softmax attention: the softmax over `m` of the scores of `q` against the keys, weighting `v`. -/
def entry {N H : ℕ} (q : Fin H → EReal) (k : Fin N → Fin H → EReal) (v : Fin N → EReal) : EReal :=
  ∑ m : Fin N, weight (score q k) m * v m

/-- The whole map: entry (b, n, j) from batch b of `x` and the three weight matrices. -/
def G (x : Fin 8 → Fin 4096 → Fin 256 → EReal) (Wq Wk : Fin 256 → Fin 128 → EReal) (Wv : Fin 256 → Fin 256 → EReal)
    (b : Fin 8) (n : Fin 4096) (j : Fin 256) : EReal :=
  entry (fun h => ∑ l : Fin 256, x b n l * Wq l h) (fun m h => ∑ l : Fin 256, x b m l * Wk l h)
    (fun m => ∑ l : Fin 256, x b m l * Wv l j)

/-- The word 0x43800000 denotes the real 256. -/
theorem ofBits_256 : Ideal.ofBits .f32 0x43800000#32 = ((256 : ℝ) : EReal) := by
  simp [Ideal.ofBits, Ideal.ieee, -EReal.coe_mul]; norm_num

/-- The word 0x3B800000 denotes the real 1/256: an exact power of two. -/
theorem scale_eq : scale = ((1 / 256 : ℝ) : EReal) := by
  simp [scale, Ideal.ofBits, Ideal.ieee, -EReal.coe_mul]; norm_num

/-- Dividing by 256 is multiplying by 2⁻⁸, on every extended real (the infinities included). -/
theorem div_256 (s : EReal) : Ideal.div s (Ideal.ofBits .f32 0x43800000#32) = s * scale := by
  rw [ofBits_256, scale_eq, Ideal.div_coe (by norm_num)]

end Cert.Attn

end
-- ==== Proof.Pieces.lean ====
/-
  What one grid point of the attention kernel leaves behind, as values of what it loaded.

  A point (b, qi) is handed batch b of x whole (a [1, 4096, 256] block), the three weight blocks, and two
  scratch buffers carried from the point before. At the first query block of a batch (qi = 0) it overwrites the
  scratch buffers with the batch's keys, x_b · Wk, and values, x_b · Wv, and then reads them back; at the other
  points it reads what the scratch already holds. In both cases the output block is the attention of query rows
  256·qi … 256·qi + 255 of the batch against whatever keys and values the scratch then holds.
-/
import proofs.«133891_j27358941675773_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The query rows of the staged batch at a point: rows 256·qi … 256·qi + 255 of the [1, 4096, 256] block. -/
def queryRows (i : grid0.Coords) (x0 : Vec F S1x4096x256 .f32) : Vec F S1x256x256 .f32 :=
  View.ld x0 (Rect.unit (s := S1x4096x256) (k0_off1 i) S1x256x256.size (k0_off1_inb i))

/-- At a batch's first point the key scratch is left holding the projection of the whole batch by the key weights. -/
theorem keys_first (c : Dev nD) (i : grid0.Coords) (a2 : Memref sig .tc .vmem S1x4096x256 .f32) (h2 : a2.IsWhole) (a3 : Memref sig .tc .vmem S1x256x128 .f32) (h3 : a3.IsWhole) (a4 : Memref sig .tc .vmem S1x256x128 .f32) (h4 : a4.IsWhole) (a5 : Memref sig .tc .vmem S1x256x256 .f32) (h5 : a5.IsWhole) (a6 : Memref sig .tc .vmem S1x256x256 .f32) (h6 : a6.IsWhole) (a7 : Memref sig .tc .vmem S4096x128 .bf16) (h7 : a7.IsWhole) (a8 : Memref sig .tc .vmem S4096x256 .bf16) (h8 : a8.IsWhole) (hc : cond0_0 i)
    (x0 : Vec F S1x4096x256 .f32) (x1 : Vec F S1x256x128 .f32) (x2 : Vec F S1x256x128 .f32) (x3 : Vec F S1x256x256 .f32) :
    sout0_A_0 c i a2 h2 a3 h3 a4 h4 a5 h5 a6 h6 a7 h7 a8 h8 hc x0 x1 x2 x3 = k0_pay2 x0 x2 := by
  unfold sout0_A_0
  rw [View.read_writes_eq_canon _ _ _ (scover0_A_0 c i a2 h2 a3 h3 a4 h4 a5 h5 a6 h6 a7 h7 a8 h8 hc x0 x1 x2 x3)]
  unfold kernelRun0_A
  dsimp only
  sl_unfold_words
  rw [View.canon_unit_zero zeros2]
  simp only [View.readAt_eq_ld, h2.read_unread, h4.read_unread, View.ld_unit_zero (S := S1x4096x256) zeros3,
    View.ld_unit_zero (S := S1x256x128) zeros3]

/-- … and the value scratch the projection of the whole batch by the value weights. -/
theorem values_first (c : Dev nD) (i : grid0.Coords) (a2 : Memref sig .tc .vmem S1x4096x256 .f32) (h2 : a2.IsWhole) (a3 : Memref sig .tc .vmem S1x256x128 .f32) (h3 : a3.IsWhole) (a4 : Memref sig .tc .vmem S1x256x128 .f32) (h4 : a4.IsWhole) (a5 : Memref sig .tc .vmem S1x256x256 .f32) (h5 : a5.IsWhole) (a6 : Memref sig .tc .vmem S1x256x256 .f32) (h6 : a6.IsWhole) (a7 : Memref sig .tc .vmem S4096x128 .bf16) (h7 : a7.IsWhole) (a8 : Memref sig .tc .vmem S4096x256 .bf16) (h8 : a8.IsWhole) (hc : cond0_0 i)
    (x0 : Vec F S1x4096x256 .f32) (x1 : Vec F S1x256x128 .f32) (x2 : Vec F S1x256x128 .f32) (x3 : Vec F S1x256x256 .f32) :
    sout0_A_1 c i a2 h2 a3 h3 a4 h4 a5 h5 a6 h6 a7 h7 a8 h8 hc x0 x1 x2 x3 = k0_pay3 x0 x3 := by
  unfold sout0_A_1
  rw [View.read_writes_eq_canon _ _ _ (scover0_A_1 c i a2 h2 a3 h3 a4 h4 a5 h5 a6 h6 a7 h7 a8 h8 hc x0 x1 x2 x3)]
  unfold kernelRun0_A
  dsimp only
  sl_unfold_words
  rw [View.canon_unit_zero zeros2]
  simp only [View.readAt_eq_ld, h2.read_unread, h5.read_unread, View.ld_unit_zero (S := S1x4096x256) zeros3,
    View.ld_unit_zero (S := S1x256x256) zeros3]

/-- At a batch's first point the output block is the attention of the point's query rows against the keys and values
    the point itself has just stored. -/
theorem out_first (c : Dev nD) (i : grid0.Coords) (a2 : Memref sig .tc .vmem S1x4096x256 .f32) (h2 : a2.IsWhole) (a3 : Memref sig .tc .vmem S1x256x128 .f32) (h3 : a3.IsWhole) (a4 : Memref sig .tc .vmem S1x256x128 .f32) (h4 : a4.IsWhole) (a5 : Memref sig .tc .vmem S1x256x256 .f32) (h5 : a5.IsWhole) (a6 : Memref sig .tc .vmem S1x256x256 .f32) (h6 : a6.IsWhole) (a7 : Memref sig .tc .vmem S4096x128 .bf16) (h7 : a7.IsWhole) (a8 : Memref sig .tc .vmem S4096x256 .bf16) (h8 : a8.IsWhole) (hc : cond0_0 i)
    (x0 : Vec F S1x4096x256 .f32) (x1 : Vec F S1x256x128 .f32) (x2 : Vec F S1x256x128 .f32) (x3 : Vec F S1x256x256 .f32) :
    out0_A_4 c i a2 h2 a3 h3 a4 h4 a5 h5 a6 h6 a7 h7 a8 h8 hc x0 x1 x2 x3 = k0_pay4 (queryRows i x0) x1 (k0_pay2 x0 x2) (k0_pay3 x0 x3) := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_unit_zero zeros3, View.readCov_unit_zero (S := S4096x128) _ zeros2,
    View.readCov_unit_zero (S := S4096x256) _ zeros2]
  simp only [View.readAt_eq_ld, h2.read_unread, h3.read_unread, h4.read_unread, h5.read_unread,
    View.ld_unit_zero (S := S1x4096x256) zeros3, View.ld_unit_zero (S := S1x256x128) zeros3,
    View.ld_unit_zero (S := S1x256x256) zeros3]
  rfl

/-- At every other point it is the attention of the point's query rows against the keys and values the scratch
    buffers were left holding. -/
theorem out_later (c : Dev nD) (i : grid0.Coords) (a2 : Memref sig .tc .vmem S1x4096x256 .f32) (h2 : a2.IsWhole) (a3 : Memref sig .tc .vmem S1x256x128 .f32) (h3 : a3.IsWhole) (a4 : Memref sig .tc .vmem S1x256x128 .f32) (h4 : a4.IsWhole) (a5 : Memref sig .tc .vmem S1x256x256 .f32) (h5 : a5.IsWhole) (a6 : Memref sig .tc .vmem S1x256x256 .f32) (h6 : a6.IsWhole) (a7 : Memref sig .tc .vmem S4096x128 .bf16) (h7 : a7.IsWhole) (a8 : Memref sig .tc .vmem S4096x256 .bf16) (h8 : a8.IsWhole) (hc : ¬cond0_0 i)
    (x0 : Vec F S1x4096x256 .f32) (x1 : Vec F S1x256x128 .f32) (x2 : Vec F S1x256x128 .f32) (x3 : Vec F S1x256x256 .f32) (xs0 : Vec F S4096x128 .bf16) (xs1 : Vec F S4096x256 .bf16) :
    out0_B_4 c i a2 h2 a3 h3 a4 h4 a5 h5 a6 h6 a7 h7 a8 h8 hc x0 x1 x2 x3 xs0 xs1 = k0_pay4 (queryRows i x0) x1 xs0 xs1 := by
  unfold out0_B_4
  rw [View.read_writes_eq_canon _ _ _ (cover0_B_4 c i a2 h2 a3 h3 a4 h4 a5 h5 a6 h6 a7 h7 a8 h8 hc x0 x1 x2 x3 xs0 xs1)]
  unfold kernelRun0_B
  dsimp only
  sl_unfold_words
  rw [View.canon_unit_zero zeros3]
  simp only [View.readAt_eq_ld, h2.read_unread, h3.read_unread, h7.read_unread, h8.read_unread,
    View.ld_unit_zero (S := S1x256x128) zeros3, View.ld_unit_zero (S := S4096x128) zeros2,
    View.ld_unit_zero (S := S4096x256) zeros2]
  rfl

end Cert.KernelIdeal.Pieces

end
-- ==== Proof.LibColumn.lean ====
/-
  Two layout operations read at an index, for a column kept as a unit axis: a vector of length `a` cast to an
  `[a, 1]` array, and an `[a, 1]` array broadcast along its unit axis to `[a, b]`. Together they say that a per-row
  quantity (a row's maximum, a row's sum) spread back over the row's columns reads, at `(p, c)`, the quantity of row `p`.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`:
    both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibMatmulIdx.lean ====
/-
  A matrix product accumulated into zeros, read at one output index, as a plain sum over ONE contraction coordinate
  `k : Fin n` of a left entry times a right entry — for any dimension numbers that contract a single axis of extent
  `n`, once the two operand indices at the output index and at `k` have been named (`li k`, `ri k`). On the extended
  reals the products' sum has no rounding and no chunk order left in it, so this is all a product says.
-/
import Idealize.ShloMosaic.PureOps.Ideal.Laws
import Idealize.ShloMosaic.Lib.ValueIdx

noncomputable section

namespace Idealize.ShloMosaic.ValueIdx

open Idealize.ShloMosaic

/-- The matrix unit's product into a zero accumulator, at output index `j`: the sum over the contraction coordinate
    of the left operand at `li k` times the right operand at `ri k`. -/
theorem matmul_zero_apply_of_idx {sl sr so : Shape} {φ₁ φ₂ : FTy} (D : DotDims sl sr so) (n : ℕ) (hr : D.contr.rank = 1)
    (hs : D.contr.size ⟨0, by omega⟩ = n) (prec : Option ContractPrecision) (lhs : FVec Ideal sl φ₁)
    (rhs : FVec Ideal sr φ₂) (j : so.Idx) (li : Fin n → sl.Idx) (ri : Fin n → sr.Idx)
    (hl : ∀ k : Fin n, D.lhsIdx j ((contrEquiv1 D n hr hs).symm k) = li k)
    (hri : ∀ k : Fin n, D.rhsIdx j ((contrEquiv1 D n hr hs).symm k) = ri k) :
    FloatOps.matmul D prec lhs rhs (constant so .f32 0x00000000#32) j = ∑ k : Fin n, lhs (li k) * rhs (ri k) := by
  rw [Ideal.matmul_constant_zero_apply, ← Equiv.sum_comp (contrEquiv1 D n hr hs).symm]
  exact Finset.sum_congr rfl fun k _ => by rw [hl k, hri k]

end Idealize.ShloMosaic.ValueIdx

end
-- ==== Proof.Payloads.lean ====
/-
  The three things a grid point computes, read entry by entry on the extended reals.

  The key scratch: entry (n, h) is Σ_l x[n, l] · Wk[l, h] over the staged batch's rows; the value scratch likewise with
  Wv; and the output block: entry (r, j) is the softmax attention of the point's query row r — its projection by Wq —
  against the keys and values handed to it. A change of float format is the identity here, a lane maximum is a fold of
  `max`, a lane sum a finite sum, and a product into a zero accumulator the sum of the products.
-/
import proofs.«133891_j27358941675773_1_alg».proof.Proof.Gen.KernelIdeal.Skeleton
import proofs.«133891_j27358941675773_1_alg».proof.Proof.Spec
import proofs.«133891_j27358941675773_1_alg».proof.Proof.LibColumn
import proofs.«133891_j27358941675773_1_alg».proof.Proof.LibMatmulIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payloads

open Cert.KernelIdeal Cert.KernelIdeal.Gen

/-! ## The two projections a batch's first point stores -/

/-- The key scratch, at (n, h): row n of the staged batch against column h of the key weights. -/
theorem keys_apply (v35 : Vec Ideal S1x4096x256 .f32) (v38 : Vec Ideal S1x256x128 .f32) (n : Fin 4096) (h : Fin 128) :
    k0_pay2 (F := Ideal) v35 v38 (ix2 n h) = ∑ l : Fin 256, v35 (ix3 0 n l) * v38 (ix3 0 l h) := by
  unfold k0_pay2 k0_pay1
  refine (congrFun (shapeCast_self _ _) _).trans ?_
  show FloatOps.matmul (F := Ideal) (φ₁ := .bf16) (φ₂ := .bf16) dot_S4096x256_S256x128_S4096x128_1_0_0_1_n_n none _ _ (constant (F := Ideal) S4096x128 .f32 0x00000000#32) (ix2 n h) = _
  refine (matmul_zero_apply_of_idx (φ₁ := .bf16) (φ₂ := .bf16) dot_S4096x256_S256x128_S4096x128_1_0_0_1_n_n 256 rfl rfl none _ _ (ix2 n h)
    (fun k => ix2 n k) (fun k => ix2 k h) (fun k => ?_) (fun k => ?_)).trans ?_
  · have hk := contrEquiv1_symm_val dot_S4096x256_S256x128_S4096x128_1_0_0_1_n_n 256 rfl rfl k
    refine funext fun x => Fin.ext ?_
    match x with
    | ⟨0, _⟩ =>
      show (dot_S4096x256_S256x128_S4096x128_1_0_0_1_n_n.lhsIdx (ix2 n h) _ 0).val = n.val
      unfold DotDims.lhsIdx
      rw [dif_neg (show ¬(0 : Fin S4096x256.rank) ∈ dot_S4096x256_S256x128_S4096x128_1_0_0_1_n_n.lhsBatch by decide),
        dif_pos (show (0 : Fin S4096x256.rank) ∈ dot_S4096x256_S256x128_S4096x128_1_0_0_1_n_n.lhsNonContracting by decide)]
      rfl
    | ⟨1, _⟩ => exact (dot_S4096x256_S256x128_S4096x128_1_0_0_1_n_n.lhsIdx_val_of_single rfl _ _).trans hk
  · have hk := contrEquiv1_symm_val dot_S4096x256_S256x128_S4096x128_1_0_0_1_n_n 256 rfl rfl k
    refine funext fun x => Fin.ext ?_
    match x with
    | ⟨0, _⟩ => exact (dot_S4096x256_S256x128_S4096x128_1_0_0_1_n_n.rhsIdx_val_of_single rfl _ _).trans hk
    | ⟨1, _⟩ =>
      show (dot_S4096x256_S256x128_S4096x128_1_0_0_1_n_n.rhsIdx (ix2 n h) _ 1).val = h.val
      unfold DotDims.rhsIdx
      rw [dif_neg (show ¬(1 : Fin S256x128.rank) ∈ dot_S4096x256_S256x128_S4096x128_1_0_0_1_n_n.rhsBatch by decide),
        dif_pos (show (1 : Fin S256x128.rank) ∈ dot_S4096x256_S256x128_S4096x128_1_0_0_1_n_n.rhsNonContracting by decide)]
      rfl
  · refine Finset.sum_congr rfl fun l _ => ?_
    show shapeCast S4096x256 v35 _ (ix2 n l) * shapeCast S256x128 v38 _ (ix2 l h) = _
    rw [shapeCast_1ab_ab_apply, shapeCast_1ab_ab_apply]

/-- The value scratch, at (n, j): row n of the staged batch against column j of the value weights. -/
theorem values_apply (v35 : Vec Ideal S1x4096x256 .f32) (v46 : Vec Ideal S1x256x256 .f32) (n : Fin 4096) (j : Fin 256) :
    k0_pay3 (F := Ideal) v35 v46 (ix2 n j) = ∑ l : Fin 256, v35 (ix3 0 n l) * v46 (ix3 0 l j) := by
  unfold k0_pay3 k0_pay1
  refine (congrFun (shapeCast_self _ _) _).trans ?_
  show FloatOps.matmul (F := Ideal) (φ₁ := .bf16) (φ₂ := .bf16) dot_S4096x256_S256x256_S4096x256_1_0_0_1_n_n none _ _ (constant (F := Ideal) S4096x256 .f32 0x00000000#32) (ix2 n j) = _
  refine (matmul_zero_apply_of_idx (φ₁ := .bf16) (φ₂ := .bf16) dot_S4096x256_S256x256_S4096x256_1_0_0_1_n_n 256 rfl rfl none _ _ (ix2 n j)
    (fun k => ix2 n k) (fun k => ix2 k j) (fun k => ?_) (fun k => ?_)).trans ?_
  · have hk := contrEquiv1_symm_val dot_S4096x256_S256x256_S4096x256_1_0_0_1_n_n 256 rfl rfl k
    refine funext fun x => Fin.ext ?_
    match x with
    | ⟨0, _⟩ =>
      show (dot_S4096x256_S256x256_S4096x256_1_0_0_1_n_n.lhsIdx (ix2 n j) _ 0).val = n.val
      unfold DotDims.lhsIdx
      rw [dif_neg (show ¬(0 : Fin S4096x256.rank) ∈ dot_S4096x256_S256x256_S4096x256_1_0_0_1_n_n.lhsBatch by decide),
        dif_pos (show (0 : Fin S4096x256.rank) ∈ dot_S4096x256_S256x256_S4096x256_1_0_0_1_n_n.lhsNonContracting by decide)]
      rfl
    | ⟨1, _⟩ => exact (dot_S4096x256_S256x256_S4096x256_1_0_0_1_n_n.lhsIdx_val_of_single rfl _ _).trans hk
  · have hk := contrEquiv1_symm_val dot_S4096x256_S256x256_S4096x256_1_0_0_1_n_n 256 rfl rfl k
    refine funext fun x => Fin.ext ?_
    match x with
    | ⟨0, _⟩ => exact (dot_S4096x256_S256x256_S4096x256_1_0_0_1_n_n.rhsIdx_val_of_single rfl _ _).trans hk
    | ⟨1, _⟩ =>
      show (dot_S4096x256_S256x256_S4096x256_1_0_0_1_n_n.rhsIdx (ix2 n j) _ 1).val = j.val
      unfold DotDims.rhsIdx
      rw [dif_neg (show ¬(1 : Fin S256x256.rank) ∈ dot_S4096x256_S256x256_S4096x256_1_0_0_1_n_n.rhsBatch by decide),
        dif_pos (show (1 : Fin S256x256.rank) ∈ dot_S4096x256_S256x256_S4096x256_1_0_0_1_n_n.rhsNonContracting by decide)]
      rfl
  · refine Finset.sum_congr rfl fun l _ => ?_
    show shapeCast S4096x256 v35 _ (ix2 n l) * shapeCast S256x256 v46 _ (ix2 l j) = _
    rw [shapeCast_1ab_ab_apply, shapeCast_1ab_ab_apply]

/-! ## The output block, stage by stage -/

/-- The query rows projected by the query weights. -/
def queries (v6 : Vec Ideal S1x256x256 .f32) (v9 : Vec Ideal S1x256x128 .f32) : FVec Ideal S256x128 .bf16 :=
  truncf .bf16 (matmul (φ₁ := .bf16) (φ₂ := .bf16) dot_S256x256_S256x128_S256x128_1_0_0_1_n_n none
    (truncf .bf16 (shapeCast S256x256 v6 shapeCasts_S1x256x256_S256x256) bitsLt_bf16_f32)
    (truncf .bf16 (shapeCast S256x128 v9 shapeCasts_S1x256x128_S256x128) bitsLt_bf16_f32)
    (constant S256x128 .f32 0x00000000#32)) bitsLt_bf16_f32

theorem queries_apply (v6 : Vec Ideal S1x256x256 .f32) (v9 : Vec Ideal S1x256x128 .f32) (r : Fin 256) (h : Fin 128) :
    queries v6 v9 (ix2 r h) = ∑ l : Fin 256, v6 (ix3 0 r l) * v9 (ix3 0 l h) := by
  unfold queries
  show FloatOps.matmul (F := Ideal) (φ₁ := .bf16) (φ₂ := .bf16) dot_S256x256_S256x128_S256x128_1_0_0_1_n_n none _ _ (constant (F := Ideal) S256x128 .f32 0x00000000#32) (ix2 r h) = _
  refine (matmul_zero_apply_of_idx (φ₁ := .bf16) (φ₂ := .bf16) dot_S256x256_S256x128_S256x128_1_0_0_1_n_n 256 rfl rfl none _ _ (ix2 r h)
    (fun k => ix2 r k) (fun k => ix2 k h) (fun k => ?_) (fun k => ?_)).trans ?_
  · have hk := contrEquiv1_symm_val dot_S256x256_S256x128_S256x128_1_0_0_1_n_n 256 rfl rfl k
    refine funext fun x => Fin.ext ?_
    match x with
    | ⟨0, _⟩ =>
      show (dot_S256x256_S256x128_S256x128_1_0_0_1_n_n.lhsIdx (ix2 r h) _ 0).val = r.val
      unfold DotDims.lhsIdx
      rw [dif_neg (show ¬(0 : Fin S256x256.rank) ∈ dot_S256x256_S256x128_S256x128_1_0_0_1_n_n.lhsBatch by decide),
        dif_pos (show (0 : Fin S256x256.rank) ∈ dot_S256x256_S256x128_S256x128_1_0_0_1_n_n.lhsNonContracting by decide)]
      rfl
    | ⟨1, _⟩ => exact (dot_S256x256_S256x128_S256x128_1_0_0_1_n_n.lhsIdx_val_of_single rfl _ _).trans hk
  · have hk := contrEquiv1_symm_val dot_S256x256_S256x128_S256x128_1_0_0_1_n_n 256 rfl rfl k
    refine funext fun x => Fin.ext ?_
    match x with
    | ⟨0, _⟩ => exact (dot_S256x256_S256x128_S256x128_1_0_0_1_n_n.rhsIdx_val_of_single rfl _ _).trans hk
    | ⟨1, _⟩ =>
      show (dot_S256x256_S256x128_S256x128_1_0_0_1_n_n.rhsIdx (ix2 r h) _ 1).val = h.val
      unfold DotDims.rhsIdx
      rw [dif_neg (show ¬(1 : Fin S256x128.rank) ∈ dot_S256x256_S256x128_S256x128_1_0_0_1_n_n.rhsBatch by decide),
        dif_pos (show (1 : Fin S256x128.rank) ∈ dot_S256x256_S256x128_S256x128_1_0_0_1_n_n.rhsNonContracting by decide)]
      rfl
  · refine Finset.sum_congr rfl fun l _ => ?_
    show shapeCast S256x256 v6 _ (ix2 r l) * shapeCast S256x128 v9 _ (ix2 l h) = _
    rw [shapeCast_1ab_ab_apply, shapeCast_1ab_ab_apply]

/-- The scaled scores of the query rows against every key row. -/
def scores (q : FVec Ideal S256x128 .bf16) (v14 : FVec Ideal S4096x128 .bf16) : FVec Ideal S256x4096 .f32 :=
  mulf (matmul (φ₁ := .bf16) (φ₂ := .bf16) dot_S256x128_S4096x128_S256x4096_1_1_0_0_n_n none q v14 (constant S256x4096 .f32 0x00000000#32))
    (broadcast S256x4096 (Scalar.ofBits (F := Ideal) .f32 0x3B800000#32))

theorem scores_apply (q : FVec Ideal S256x128 .bf16) (v14 : FVec Ideal S4096x128 .bf16) (r : Fin 256) (m : Fin 4096) :
    scores q v14 (ix2 r m) = Attn.score (fun h => q (ix2 r h)) (fun m h => v14 (ix2 m h)) m := by
  unfold scores Attn.score
  show FloatOps.matmul (F := Ideal) (φ₁ := .bf16) (φ₂ := .bf16) dot_S256x128_S4096x128_S256x4096_1_1_0_0_n_n none _ _ (constant (F := Ideal) S256x4096 .f32 0x00000000#32) (ix2 r m) * Attn.scale = _
  refine congrArg (· * Attn.scale) ?_
  refine (matmul_zero_apply_of_idx (φ₁ := .bf16) (φ₂ := .bf16) dot_S256x128_S4096x128_S256x4096_1_1_0_0_n_n 128 rfl rfl none _ _ (ix2 r m)
    (fun k => ix2 r k) (fun k => ix2 m k) (fun k => ?_) (fun k => ?_)).trans ?_
  · have hk := contrEquiv1_symm_val dot_S256x128_S4096x128_S256x4096_1_1_0_0_n_n 128 rfl rfl k
    refine funext fun x => Fin.ext ?_
    match x with
    | ⟨0, _⟩ =>
      show (dot_S256x128_S4096x128_S256x4096_1_1_0_0_n_n.lhsIdx (ix2 r m) _ 0).val = r.val
      unfold DotDims.lhsIdx
      rw [dif_neg (show ¬(0 : Fin S256x128.rank) ∈ dot_S256x128_S4096x128_S256x4096_1_1_0_0_n_n.lhsBatch by decide),
        dif_pos (show (0 : Fin S256x128.rank) ∈ dot_S256x128_S4096x128_S256x4096_1_1_0_0_n_n.lhsNonContracting by decide)]
      rfl
    | ⟨1, _⟩ => exact (dot_S256x128_S4096x128_S256x4096_1_1_0_0_n_n.lhsIdx_val_of_single rfl _ _).trans hk
  · have hk := contrEquiv1_symm_val dot_S256x128_S4096x128_S256x4096_1_1_0_0_n_n 128 rfl rfl k
    refine funext fun x => Fin.ext ?_
    match x with
    | ⟨0, _⟩ =>
      show (dot_S256x128_S4096x128_S256x4096_1_1_0_0_n_n.rhsIdx (ix2 r m) _ 0).val = m.val
      unfold DotDims.rhsIdx
      rw [dif_neg (show ¬(0 : Fin S4096x128.rank) ∈ dot_S256x128_S4096x128_S256x4096_1_1_0_0_n_n.rhsBatch by decide),
        dif_pos (show (0 : Fin S4096x128.rank) ∈ dot_S256x128_S4096x128_S256x4096_1_1_0_0_n_n.rhsNonContracting by decide)]
      rfl
    | ⟨1, _⟩ => exact (dot_S256x128_S4096x128_S256x4096_1_1_0_0_n_n.rhsIdx_val_of_single rfl _ _).trans hk
  · rfl

/-- A per-row quantity spread back over the row's 4096 columns. -/
def spread (v : FVec Ideal S256 .f32) : FVec Ideal S256x4096 .f32 :=
  broadcastTo S256x4096 (shapeCast S256x1 v shapeCasts_S256_S256x1) broadcasts_S256x1_S256x4096

theorem spread_apply (v : FVec Ideal S256 .f32) (r : Fin 256) (m : Fin 4096) : spread v (ix2 r m) = v (ix1 r) := by
  unfold spread
  rw [broadcastTo_a1_ab_apply, shapeCast_a_a1_apply]

/-- The row of the [256, 4096] block a reduction over its columns reads at row `r` and column `k`. -/
theorem lift_row (r : Fin 256) (k : Fin 4096) : reduces_S256x4096_S256.lift (ix1 r) k = ix2 r k :=
  funext fun a => Fin.ext (by match a with | ⟨0, _⟩ => rfl | ⟨1, _⟩ => rfl)

/-- Each row's maximum, from −∞ and once more against −∞. -/
def rowMaxima (s : FVec Ideal S256x4096 .f32) : FVec Ideal S256 .f32 :=
  maximumf (broadcast S256 (Scalar.ofBits (F := Ideal) .f32 0xFF800000#32))
    (multiReduction .maximumf [1] S256 s 0xFF800000#32 reduces_S256x4096_S256 (.inl rfl) rfl)

theorem rowMaxima_apply (s : FVec Ideal S256x4096 .f32) (r : Fin 256) :
    rowMaxima s (ix1 r) = Attn.rowMax (fun m : Fin 4096 => s (ix2 r m)) := by
  have e := Ideal.multiReduction_maximumf_single s 0xFF800000#32 reduces_S256x4096_S256 (.inl rfl) rfl (ix1 r)
  rw [show (s ∘ reduces_S256x4096_S256.lift (ix1 r)) = (fun m : Fin 4096 => s (ix2 r m)) from
    funext fun k => congrArg s (lift_row r k), Ideal.ofBits_def] at e
  unfold rowMaxima Attn.rowMax
  rw [maximumf_apply, e, broadcast_apply]
  rfl

/-- An exponential taken entry by entry. -/
theorem exp_apply {s : Shape} {φ : FTy} (a : FVec Ideal s φ) (i : s.Idx) : exp a i = Ideal.exp (a i) := rfl

/-- The exponentials of the scores shifted by their row's maximum. -/
def exps (s : FVec Ideal S256x4096 .f32) : FVec Ideal S256x4096 .f32 := exp (subf s (spread (rowMaxima s)))

theorem exps_apply (s : FVec Ideal S256x4096 .f32) (r : Fin 256) (m : Fin 4096) :
    exps s (ix2 r m) = Ideal.exp (s (ix2 r m) - Attn.rowMax (fun m : Fin 4096 => s (ix2 r m))) := by
  unfold exps
  rw [exp_apply, subf_apply, spread_apply, rowMaxima_apply]

/-- Each row's sum. -/
def rowSums (e : FVec Ideal S256x4096 .f32) : FVec Ideal S256 .f32 :=
  multiReduction .add [1] S256 e 0x00000000#32 reduces_S256x4096_S256 (.inl rfl) rfl

theorem rowSums_apply (e : FVec Ideal S256x4096 .f32) (r : Fin 256) :
    rowSums e (ix1 r) = ∑ m : Fin 4096, e (ix2 r m) := by
  unfold rowSums
  refine (Ideal.multiReduction_add_single e _ reduces_S256x4096_S256 _ _ (ix1 r)).trans ?_
  show ∑ k : Fin 4096, e (reduces_S256x4096_S256.lift (ix1 r) k) = _
  exact Finset.sum_congr rfl fun k _ => congrArg e (lift_row r k)

/-- The softmax of each row of scores. -/
def softmax (s : FVec Ideal S256x4096 .f32) : FVec Ideal S256x4096 .f32 := divf (exps s) (spread (rowSums (exps s)))

theorem softmax_apply (s : FVec Ideal S256x4096 .f32) (r : Fin 256) (m : Fin 4096) :
    softmax s (ix2 r m) = Attn.weight (fun m : Fin 4096 => s (ix2 r m)) m := by
  unfold softmax Attn.weight
  rw [divf_apply, spread_apply, rowSums_apply, exps_apply]
  exact congrArg _ (Finset.sum_congr rfl fun m' _ => exps_apply s r m')

/-- The output payload is these stages composed, then multiplied into the values. -/
theorem out_eq (v6 : Vec Ideal S1x256x256 .f32) (v9 : Vec Ideal S1x256x128 .f32) (v14 : Vec Ideal S4096x128 .bf16)
    (v30 : Vec Ideal S4096x256 .bf16) :
    k0_pay4 (F := Ideal) v6 v9 v14 v30 = shapeCast S1x256x256 (matmul (φ₁ := .bf16) (φ₂ := .bf16) dot_S256x4096_S4096x256_S256x256_1_0_0_1_n_n none
      (truncf .bf16 (softmax (scores (queries v6 v9) v14)) bitsLt_bf16_f32) v30 (constant S256x256 .f32 0x00000000#32))
      shapeCasts_S256x256_S1x256x256 := rfl

/-- The output block at (r, j): the softmax attention of query row r — its projection by the query weights —
    against the keys and values the point was handed. -/
theorem out_apply (v6 : Vec Ideal S1x256x256 .f32) (v9 : Vec Ideal S1x256x128 .f32) (v14 : Vec Ideal S4096x128 .bf16)
    (v30 : Vec Ideal S4096x256 .bf16) (r : Fin 256) (j : Fin 256) :
    k0_pay4 (F := Ideal) v6 v9 v14 v30 (ix3 0 r j)
      = Attn.entry (fun h => ∑ l : Fin 256, v6 (ix3 0 r l) * v9 (ix3 0 l h)) (fun m h => v14 (ix2 m h))
          (fun m => v30 (ix2 m j)) := by
  rw [out_eq, shapeCast_ab_1ab_apply]
  unfold Attn.entry
  show FloatOps.matmul (F := Ideal) (φ₁ := .bf16) (φ₂ := .bf16) dot_S256x4096_S4096x256_S256x256_1_0_0_1_n_n none _ _ (constant (F := Ideal) S256x256 .f32 0x00000000#32) (ix2 r j) = _
  refine (matmul_zero_apply_of_idx (φ₁ := .bf16) (φ₂ := .bf16) dot_S256x4096_S4096x256_S256x256_1_0_0_1_n_n 4096 rfl rfl none _ _ (ix2 r j)
    (fun k => ix2 r k) (fun k => ix2 k j) (fun k => ?_) (fun k => ?_)).trans ?_
  · have hk := contrEquiv1_symm_val dot_S256x4096_S4096x256_S256x256_1_0_0_1_n_n 4096 rfl rfl k
    refine funext fun x => Fin.ext ?_
    match x with
    | ⟨0, _⟩ =>
      show (dot_S256x4096_S4096x256_S256x256_1_0_0_1_n_n.lhsIdx (ix2 r j) _ 0).val = r.val
      unfold DotDims.lhsIdx
      rw [dif_neg (show ¬(0 : Fin S256x4096.rank) ∈ dot_S256x4096_S4096x256_S256x256_1_0_0_1_n_n.lhsBatch by decide),
        dif_pos (show (0 : Fin S256x4096.rank) ∈ dot_S256x4096_S4096x256_S256x256_1_0_0_1_n_n.lhsNonContracting by decide)]
      rfl
    | ⟨1, _⟩ => exact (dot_S256x4096_S4096x256_S256x256_1_0_0_1_n_n.lhsIdx_val_of_single rfl _ _).trans hk
  · have hk := contrEquiv1_symm_val dot_S256x4096_S4096x256_S256x256_1_0_0_1_n_n 4096 rfl rfl k
    refine funext fun x => Fin.ext ?_
    match x with
    | ⟨0, _⟩ => exact (dot_S256x4096_S4096x256_S256x256_1_0_0_1_n_n.rhsIdx_val_of_single rfl _ _).trans hk
    | ⟨1, _⟩ =>
      show (dot_S256x4096_S4096x256_S256x256_1_0_0_1_n_n.rhsIdx (ix2 r j) _ 1).val = j.val
      unfold DotDims.rhsIdx
      rw [dif_neg (show ¬(1 : Fin S4096x256.rank) ∈ dot_S256x4096_S4096x256_S256x256_1_0_0_1_n_n.rhsBatch by decide),
        dif_pos (show (1 : Fin S4096x256.rank) ∈ dot_S256x4096_S4096x256_S256x256_1_0_0_1_n_n.rhsNonContracting by decide)]
      rfl
  · refine Finset.sum_congr rfl fun m _ => ?_
    show softmax (scores (queries v6 v9) v14) (ix2 r m) * v30 (ix2 m j) = _
    rw [softmax_apply]
    refine congrArg (fun s => Attn.weight s m * v30 (ix2 m j)) (funext fun m' => ?_)
    rw [scores_apply]
    exact congrArg (fun q => Attn.score q (fun m h => v14 (ix2 m h)) m') (funext fun h => queries_apply v6 v9 r h)

end Cert.KernelIdeal.Payloads

end
-- ==== Proof.Blocks.lean ====
/-
  What the pipeline hands a grid point, read off the arrays as the region finds them.

  The 128 points are (b, qi) = (t / 16, t % 16). The batch window's block at a point is batch b of x, whole; the three
  weight windows' blocks are their whole arrays at every point; the output window's block is rows 256·qi … 256·qi + 255
  of batch b. The query rows a point slices out of its staged batch are rows 256·qi + r of batch b. The fourth
  window's array is the low-rank value map, V_down · V_up, which a host product writes before the region.
-/
import proofs.«133891_j27358941675773_1_alg».proof.Proof.Gen.KernelIdeal.Frame
import proofs.«133891_j27358941675773_1_alg».proof.Proof.Pieces
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-! ## The index maps, decided once over the 128 points -/

theorem index_batch : ∀ t : Fin cfg0.N, win0_0.index t 0 = t.val / 16 ∧ win0_0.index t 1 = 0 ∧ win0_0.index t 2 = 0 :=
  (by decide +kernel : ∀ t : Fin grid0.N, win0_0.index t 0 = t.val / 16 ∧ win0_0.index t 1 = 0 ∧ win0_0.index t 2 = 0)
theorem index_wq : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index_wk : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem index_wv : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem index_out : ∀ t : Fin cfg0.N, win0_4.index t 0 = t.val / 16 ∧ win0_4.index t 1 = t.val % 16 ∧ win0_4.index t 2 = 0 :=
  (by decide +kernel : ∀ t : Fin grid0.N, win0_4.index t 0 = t.val / 16 ∧ win0_4.index t 1 = t.val % 16 ∧ win0_4.index t 2 = 0)
/-- The query-block coordinate of point `t`. -/
theorem coord_q : ∀ t : Fin cfg0.N, (grid0.coords t 1).val = t.val % 16 :=
  (by decide +kernel : ∀ t : Fin grid0.N, (grid0.coords t 1).val = t.val % 16)

/-! ## The blocks -/

/-- The batch window's block at point `t` is batch `t / 16` of x. -/
theorem batch_block (c : Dev nD) (t : Fin cfg0.N) (b : Fin 8) (hb : b.val = t.val / 16) (n : Fin 4096) (l : Fin 256) :
    (iblk m c 0 t : Vec F S1x4096x256 .f32) (ix3 0 n l) = V m c main_arg0 (ix3 b n l) := by
  unfold iblk
  rw [View.read_apply]
  show V m c main_arg0 _ = V m c main_arg0 _
  congr 1
  funext a
  apply Fin.ext
  match a with
  | ⟨0, _⟩ => show win0_0.index t 0 * 1 + 1 * 0 = b.val; rw [(index_batch t).1, hb]; omega
  | ⟨1, _⟩ => show win0_0.index t 1 * 4096 + 1 * n.val = n.val; rw [(index_batch t).2.1]; omega
  | ⟨2, _⟩ => show win0_0.index t 2 * 256 + 1 * l.val = l.val; rw [(index_batch t).2.2]; omega

/-- The query-weight window's block is its whole array, at every point. -/
theorem wq_block (c : Dev nD) (t : Fin cfg0.N) : (iblk m c 1 t : Vec F S1x256x128 .f32) = V m c main_arg1 := by
  funext y
  unfold iblk
  rw [View.read_apply]
  show V m c main_arg1 _ = V m c main_arg1 y
  congr 1
  funext a
  apply Fin.ext
  match a with
  | ⟨0, _⟩ => show win0_1.index t 0 * 1 + 1 * (y 0).val = (y 0).val; rw [(index_wq t).1]; omega
  | ⟨1, _⟩ => show win0_1.index t 1 * 256 + 1 * (y 1).val = (y 1).val; rw [(index_wq t).2.1]; omega
  | ⟨2, _⟩ => show win0_1.index t 2 * 128 + 1 * (y 2).val = (y 2).val; rw [(index_wq t).2.2]; omega

/-- The key-weight window's block is its whole array, at every point. -/
theorem wk_block (c : Dev nD) (t : Fin cfg0.N) : (iblk m c 2 t : Vec F S1x256x128 .f32) = V m c main_arg2 := by
  funext y
  unfold iblk
  rw [View.read_apply]
  show V m c main_arg2 _ = V m c main_arg2 y
  congr 1
  funext a
  apply Fin.ext
  match a with
  | ⟨0, _⟩ => show win0_2.index t 0 * 1 + 1 * (y 0).val = (y 0).val; rw [(index_wk t).1]; omega
  | ⟨1, _⟩ => show win0_2.index t 1 * 256 + 1 * (y 1).val = (y 1).val; rw [(index_wk t).2.1]; omega
  | ⟨2, _⟩ => show win0_2.index t 2 * 128 + 1 * (y 2).val = (y 2).val; rw [(index_wk t).2.2]; omega

/-- The value-weight window's block is its whole array, at every point. -/
theorem wv_block (c : Dev nD) (t : Fin cfg0.N) : (iblk m c 3 t : Vec F S1x256x256 .f32) = V m c main_v0 := by
  funext y
  unfold iblk
  rw [View.read_apply]
  show V m c main_v0 _ = V m c main_v0 y
  congr 1
  funext a
  apply Fin.ext
  match a with
  | ⟨0, _⟩ => show win0_3.index t 0 * 1 + 1 * (y 0).val = (y 0).val; rw [(index_wv t).1]; omega
  | ⟨1, _⟩ => show win0_3.index t 1 * 256 + 1 * (y 1).val = (y 1).val; rw [(index_wv t).2.1]; omega
  | ⟨2, _⟩ => show win0_3.index t 2 * 256 + 1 * (y 2).val = (y 2).val; rw [(index_wv t).2.2]; omega

/-- The value-weight window's array is the host's product of the two low-rank factors, written before the region. -/
theorem wv_array (c : Dev nD) :
    (V m c main_v0 : S1x256x256.Idx → Elt F .f32)
      = Host.dotGeneral dot_S1x256x128_S1x128x256_S1x256x256_2_1_1_2_0_0 none (m ((c : Thread nD τ).loc main_arg3))
          (m ((c : Thread nD τ).loc main_arg4)) := by
  dsimp only [V, hostOps0]
  after_results

/-- The query rows a point slices out of its staged batch: row `r` of the slice is row 256·qi + r of the batch. -/
theorem queryRows_apply (x0 : Vec F S1x4096x256 .f32) (t : Fin cfg0.N) (r l : Fin 256) (n : Fin 4096)
    (hn : n.val = 256 * (t.val % 16) + r.val) :
    Pieces.queryRows (grid0.coords t) x0 (ix3 0 r l) = x0 (ix3 0 n l) := by
  unfold Pieces.queryRows
  show x0 ((Rect.unit (s := S1x4096x256) (k0_off1 (grid0.coords t)) S1x256x256.size (k0_off1_inb (grid0.coords t))).emb
    (ix3 0 r l)) = _
  congr 1
  funext a
  apply Fin.ext
  match a with
  | ⟨0, _⟩ => show k0_off1 (grid0.coords t) 0 + 1 * 0 = 0; rw [k0_off1_eq]; rfl
  | ⟨1, _⟩ =>
    show k0_off1 (grid0.coords t) 1 + 1 * r.val = n.val
    rw [k0_off1_eq, hn]
    show 256 * (grid0.coords t 1).val + 1 * r.val = _
    rw [coord_q]; omega
  | ⟨2, _⟩ => show k0_off1 (grid0.coords t) 2 + 1 * l.val = l.val; rw [k0_off1_eq]; show 0 + 1 * l.val = l.val; omega

end Cert.KernelIdeal.Blocks

end
-- ==== Proof.Carried.lean ====
/-
  What the two scratch buffers and the output block hold after every grid point.

  The points of one batch, (b, 0), (b, 1), …, (b, 15), are consecutive. The first of them stores the batch's keys
  x_b · Wk and values x_b · Wv into the scratch buffers; the other fifteen leave the scratch as they found it. So after
  ANY point (b, qi) the scratch holds batch b's keys and values — by induction along the grid, the step from a point to
  the next inside a batch being "nothing stored" — and the point's output block is the attention of rows
  256·qi … 256·qi + 255 of batch b against all 4096 rows of the same batch.
-/
import proofs.«133891_j27358941675773_1_alg».proof.Proof.Gen.KernelIdeal.Frame
import proofs.«133891_j27358941675773_1_alg».proof.Proof.Spec
import proofs.«133891_j27358941675773_1_alg».proof.Proof.Pieces
import proofs.«133891_j27358941675773_1_alg».proof.Proof.Payloads
import proofs.«133891_j27358941675773_1_alg».proof.Proof.Blocks

noncomputable section

open Idealize.ShloMosaic Idealize.ShloMosaic.TcCoe Idealize.SL.Sem Idealize.ShloMosaic.ValueIdx

namespace Cert.KernelIdeal.Carried

open Cert.KernelIdeal Cert.KernelIdeal.Gen

/-! ## A point's three results over what the point before left, at any float instance -/

section AnyInstance

variable {F : FTy → Type} [FloatOps F]
variable (m : (ℓ : Loc nD τ sig) → Buf (Elt F) ℓ)

theorem keys_at_first (c : Dev nD) (t : Fin cfg0.N) (h0 : t.val % 16 = 0) :
    (outsAt0 m c t.val t.isLt).2.1 = k0_pay2 (iblk m c 0 t) (iblk m c 2 t) := by
  rw [outsAt0_A m c t h0]
  dsimp only
  exact Pieces.keys_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)

theorem values_at_first (c : Dev nD) (t : Fin cfg0.N) (h0 : t.val % 16 = 0) :
    (outsAt0 m c t.val t.isLt).2.2 = k0_pay3 (iblk m c 0 t) (iblk m c 3 t) := by
  rw [outsAt0_A m c t h0]
  dsimp only
  exact Pieces.values_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)

theorem keys_at_later (c : Dev nD) (t : Fin cfg0.N) (h0 : ¬t.val % 16 = 0) :
    (outsAt0 m c t.val t.isLt).2.1 = (outsAt0 m c (t.val - 1) (Nat.lt_of_le_of_lt (Nat.sub_le _ _) t.isLt)).2.1 := by
  rw [outsAt0_B m c t h0]
  rfl

theorem values_at_later (c : Dev nD) (t : Fin cfg0.N) (h0 : ¬t.val % 16 = 0) :
    (outsAt0 m c t.val t.isLt).2.2 = (outsAt0 m c (t.val - 1) (Nat.lt_of_le_of_lt (Nat.sub_le _ _) t.isLt)).2.2 := by
  rw [outsAt0_B m c t h0]
  rfl

/-- At every point the output block is the attention of the point's query rows against what the scratch buffers hold
    once the point is done. -/
theorem out_at (c : Dev nD) (t : Fin cfg0.N) :
    (outsAt0 m c t.val t.isLt).1 = k0_pay4 (Pieces.queryRows (grid0.coords t) (iblk m c 0 t)) (iblk m c 1 t)
      (outsAt0 m c t.val t.isLt).2.1 (outsAt0 m c t.val t.isLt).2.2 := by
  by_cases h0 : t.val % 16 = 0
  · rw [keys_at_first m c t h0, values_at_first m c t h0, outsAt0_A m c t h0]
    dsimp only
    exact Pieces.out_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)
  · rw [keys_at_later m c t h0, values_at_later m c t h0, outsAt0_B m c t h0]
    dsimp only
    exact Pieces.out_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.1 (outsAt0 m c (t.val - 1) (Nat.lt_of_le_of_lt (Nat.sub_le _ _) t.isLt)).2.2

end AnyInstance

/-! ## On the extended reals -/

variable (m : (ℓ : Loc nD τ sig) → Buf (Elt Ideal) ℓ)

/-- The four arrays the region reads, by coordinates: x, and the query, key and value weight matrices. -/
def X (c : Dev nD) (b : Fin 8) (n : Fin 4096) (l : Fin 256) : EReal := V m c main_arg0 (ix3 b n l)
def Wq (c : Dev nD) (l : Fin 256) (h : Fin 128) : EReal := V m c main_arg1 (ix3 0 l h)
def Wk (c : Dev nD) (l : Fin 256) (h : Fin 128) : EReal := V m c main_arg2 (ix3 0 l h)
def Wv (c : Dev nD) (l : Fin 256) (j : Fin 256) : EReal := V m c main_v0 (ix3 0 l j)

/-- After a batch's first point the scratch holds that batch's keys and values. -/
theorem first_holds (c : Dev nD) (t : Fin cfg0.N) (h0 : t.val % 16 = 0) (b : Fin 8) (hb : b.val = t.val / 16) :
    (∀ (r : Fin 4096) (h : Fin 128), (outsAt0 m c t.val t.isLt).2.1 (ix2 r h) = ∑ l : Fin 256, X m c b r l * Wk m c l h)
    ∧ (∀ (r : Fin 4096) (j : Fin 256), (outsAt0 m c t.val t.isLt).2.2 (ix2 r j) = ∑ l : Fin 256, X m c b r l * Wv m c l j) := by
  constructor
  · intro r h
    rw [keys_at_first m c t h0]
    refine (Payloads.keys_apply (iblk m c 0 t) (iblk m c 2 t) r h).trans ?_
    refine Finset.sum_congr rfl fun l _ => ?_
    exact congrArg₂ (· * ·) (Blocks.batch_block m c t b hb r l) (congrFun (Blocks.wk_block m c t) (ix3 0 l h))
  · intro r j
    rw [values_at_first m c t h0]
    refine (Payloads.values_apply (iblk m c 0 t) (iblk m c 3 t) r j).trans ?_
    refine Finset.sum_congr rfl fun l _ => ?_
    exact congrArg₂ (· * ·) (Blocks.batch_block m c t b hb r l) (congrFun (Blocks.wv_block m c t) (ix3 0 l j))

/-- After EVERY point of batch `b` the scratch holds that batch's keys and values: by induction along the grid. -/
theorem scratch_holds (c : Dev nD) : ∀ (n : ℕ) (hn : n < cfg0.N) (b : Fin 8), b.val = n / 16 →
    (∀ (r : Fin 4096) (h : Fin 128), (outsAt0 m c n hn).2.1 (ix2 r h) = ∑ l : Fin 256, X m c b r l * Wk m c l h)
    ∧ (∀ (r : Fin 4096) (j : Fin 256), (outsAt0 m c n hn).2.2 (ix2 r j) = ∑ l : Fin 256, X m c b r l * Wv m c l j)
  | 0, hn, b, hb => first_holds m c ⟨0, hn⟩ (Nat.zero_mod 16) b hb
  | n + 1, hn, b, hb => by
    by_cases h0 : (n + 1) % 16 = 0
    · exact first_holds m c ⟨n + 1, hn⟩ h0 b hb
    · have ih := scratch_holds c n (Nat.lt_of_succ_lt hn) b (by omega)
      constructor
      · intro r h
        rw [keys_at_later m c ⟨n + 1, hn⟩ h0]
        exact ih.1 r h
      · intro r j
        rw [values_at_later m c ⟨n + 1, hn⟩ h0]
        exact ih.2 r j

/-- The output block of point (b, qi), at (r, j): entry (b, 256·qi + r, j) of the attention map. -/
theorem out_holds (c : Dev nD) (t : Fin cfg0.N) (b : Fin 8) (hb : b.val = t.val / 16) (r j : Fin 256) (n : Fin 4096)
    (hn : n.val = 256 * (t.val % 16) + r.val) :
    (outsAt0 m c t.val t.isLt).1 (ix3 0 r j) = Attn.G (X m c) (Wq m c) (Wk m c) (Wv m c) b n j := by
  obtain ⟨hk, hv⟩ := scratch_holds m c t.val t.isLt b hb
  rw [out_at m c t]
  refine (Payloads.out_apply (Pieces.queryRows (grid0.coords t) (iblk m c 0 t)) (iblk m c 1 t)
    (outsAt0 m c t.val t.isLt).2.1 (outsAt0 m c t.val t.isLt).2.2 r j).trans ?_
  have eq : (fun h : Fin 128 => ∑ l : Fin 256,
      Pieces.queryRows (grid0.coords t) (iblk m c 0 t) (ix3 0 r l) * iblk m c 1 t (ix3 0 l h))
      = fun h => ∑ l : Fin 256, X m c b n l * Wq m c l h :=
    funext fun h => Finset.sum_congr rfl fun l _ => congrArg₂ (· * ·)
      ((Blocks.queryRows_apply (iblk m c 0 t) t r l n hn).trans (Blocks.batch_block m c t b hb n l))
      (congrFun (Blocks.wq_block m c t) (ix3 0 l h))
  have ek : (fun (m' : Fin 4096) (h : Fin 128) => (outsAt0 m c t.val t.isLt).2.1 (ix2 m' h))
      = fun m' h => ∑ l : Fin 256, X m c b m' l * Wk m c l h := funext fun m' => funext fun h => hk m' h
  have ev : (fun m' : Fin 4096 => (outsAt0 m c t.val t.isLt).2.2 (ix2 m' j))
      = fun m' => ∑ l : Fin 256, X m c b m' l * Wv m c l j := funext fun m' => hv m' j
  unfold Attn.G
  rw [eq, ek, ev]

end Cert.KernelIdeal.Carried

end
-- ==== Proof.Final.lean ====
/-
  From the blocks to the array: what the kernel's result holds when the run is over.

  Point (b, qi) writes its output block back to rows 256·qi … 256·qi + 255 of batch b of the result, and that block is
  the restriction of ONE function of the argument arrays — the attention map — to those rows. The 128 blocks tile the
  result: the entry (b, n, j) lies in the block of point 16·b + n / 256. So the whole array is the attention map.
-/
import proofs.«133891_j27358941675773_1_alg».proof.Proof.Gen.KernelIdeal.Value
import proofs.«133891_j27358941675773_1_alg».proof.Proof.Carried
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ) (ρ : Dev nD → PrngReg)

/-- The attention map of the arrays the region reads, as contents of the result array. -/
def result (c : Dev nD) : S8x4096x256.Idx → EReal :=
  fun i => Attn.G (Carried.X m c) (Carried.Wq m c) (Carried.Wk m c) (Carried.Wv m c) (i 0) (i 1) (i 2)

/-- What point `t` writes back is block `t` of the attention map. -/
theorem flushed_eq (c : Dev nD) (t : Fin cfg0.N) :
    (dats m 0 c).flushed 4 t = ((cfg0.win 4).blk t).view.read (Elt Ideal) (result m c) := by
  have hN : t.val < 128 := lt_of_lt_of_eq t.isLt N_0
  obtain ⟨e0, e1, e2⟩ := Blocks.index_out t
  rw [Value.flushed4]
  funext y
  obtain ⟨u, r, j, rfl⟩ : ∃ (u : Fin 1) (r j : Fin 256), (y : S1x256x256.Idx) = ix3 u r j := ⟨y 0, y 1, y 2, eq_ix3 y⟩
  obtain rfl : u = 0 := Subsingleton.elim _ _
  show (outsAt0 m c t.val t.isLt).1 (ix3 0 r j) = result m c (((cfg0.win 4).blk t).view.emb (ix3 0 r j))
  rw [Carried.out_holds m c t ⟨t.val / 16, by omega⟩ rfl r j ⟨256 * (t.val % 16) + r.val, by have := r.isLt; omega⟩ rfl]
  unfold result
  refine congr (congr (congrArg (Attn.G _ _ _ _) (Fin.ext ?_)) (Fin.ext ?_)) (Fin.ext ?_)
  · show t.val / 16 = win0_4.index t 0 * 1 + 1 * 0
    rw [e0]; omega
  · show 256 * (t.val % 16) + r.val = win0_4.index t 1 * 256 + 1 * r.val
    rw [e1]; omega
  · show j.val = win0_4.index t 2 * 256 + 1 * j.val
    rw [e2]; omega

/-- An index of the result is in point `t`'s block iff each coordinate is in the block's range on its axis. -/
theorem mem_blk (t : Fin cfg0.N) (i : S8x4096x256.Idx) :
    i ∈ ((cfg0.win 4).blk t).view.set ↔ ∀ a : Fin 3, win0_4.index t a * S1x256x256.size a ≤ (i a).val
      ∧ (i a).val < win0_4.index t a * S1x256x256.size a + S1x256x256.size a := by
  show i ∈ ((View.whole main_v1).slice (win0_4.rect t)).set ↔ _
  rw [View.set_slice_whole, Rect.mem_set_unit]
  exact Iff.rfl

/-- Every entry of the result is in some point's block: entry (b, n, j) in that of point 16·b + n / 256. -/
theorem cover (i : S8x4096x256.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 256 := (i 2).isLt
  have hN : cfg0.N = 128 := N_0
  refine ⟨⟨16 * (i 0).val + (i 1).val / 256, by omega⟩, flush0_4 _, ?_⟩
  obtain ⟨e0, e1, e2⟩ := Blocks.index_out ⟨16 * (i 0).val + (i 1).val / 256, by omega⟩
  rw [mem_blk]
  intro a
  match a with
  | ⟨0, _⟩ =>
    show win0_4.index _ 0 * 1 ≤ (i 0).val ∧ (i 0).val < win0_4.index _ 0 * 1 + 1
    rw [e0]; dsimp only; omega
  | ⟨1, _⟩ =>
    show win0_4.index _ 1 * 256 ≤ (i 1).val ∧ (i 1).val < win0_4.index _ 1 * 256 + 256
    rw [e1]; dsimp only; omega
  | ⟨2, _⟩ =>
    show win0_4.index _ 2 * 256 ≤ (i 2).val ∧ (i 2).val < win0_4.index _ 2 * 256 + 256
    rw [e2]; omega

/-- The result array after the run is the attention map. -/
theorem final (c : Dev nD) : (dats m 0 c).arrAt 4 cfg0.N = result m c :=
  (dats m 0 c).arrAt_eq_of_cover 4 (result m c) (fun t _ => flushed_eq m c t) cover

/-- The kernel's run, read: the result array at the attention map, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

/-- The same map over the argument arrays as launched: no host operation writes x or the query and key weights
    before the region, and the value weights are the host's product of the two low-rank factors. -/
theorem result_eq (c : Dev nD) : result m c = fun i =>
    Attn.G (fun b n l => m ((c : Thread nD τ).loc main_arg0) (ix3 b n l))
      (fun l h => m ((c : Thread nD τ).loc main_arg1) (ix3 0 l h))
      (fun l h => m ((c : Thread nD τ).loc main_arg2) (ix3 0 l h))
      (fun l j => Host.dotGeneral (F := Ideal) (φ₁ := .f32) (φ₂ := .f32) dot_S1x256x128_S1x128x256_S1x256x256_2_1_1_2_0_0 none
        (m ((c : Thread nD τ).loc main_arg3)) (m ((c : Thread nD τ).loc main_arg4)) (ix3 0 l j))
      (i 0) (i 1) (i 2) := by
  unfold result Carried.X Carried.Wq Carried.Wk Carried.Wv
  rw [V_main_arg0 m c, V_main_arg1 m c, V_main_arg2 m c, Blocks.wv_array m c]

end Cert.KernelIdeal.Final

end
-- ==== Proof.Reference.lean ====
/-
  The reference's run, read entry by entry, is the attention map of the specification.

  Its stages, in the order its program computes them: the three weight matrices with their leading unit axis summed
  away (a sum of one term from zero); the projections q, k, v of every row of x; the scores ⟨q_n, k_m⟩ / 256, where
  dividing by 256 is multiplying by 2⁻⁸; each row's maximum, exponentials and their sum; the softmax weights; and the
  weighted sum of the values. Every sum from a zero initial value drops the zero: 0 + s = s on the extended reals.
-/
import proofs.«133891_j27358941675773_1_alg».proof.Proof.Gen.ReferenceIdeal.Read
import proofs.«133891_j27358941675773_1_alg».proof.Proof.Spec
import Idealize.ShloMosaic.PureOps.Ideal.Laws
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read

variable (x0 : (⟨S8x4096x256, .f32⟩ : BufTy).Contents (Elt Ideal))
variable (x1 x2 x3 : (⟨S1x256x128, .f32⟩ : BufTy).Contents (Elt Ideal))
variable (x4 : (⟨S1x128x256, .f32⟩ : BufTy).Contents (Elt Ideal))

/-- A sum of one term from the zero word is that term. -/
theorem zero_add_sum_one (f : Fin 1 → EReal) : Ideal.ofBits .f32 0x00000000#32 + ∑ k : Fin 1, f k = f 0 := by
  rw [Ideal.ofBits_zero_f32, zero_add, Fin.sum_univ_one]

/-- A fold by the float maximum on the extended reals is a fold by `max`. -/
theorem fold_maximumf_eq {α : Type} (s : Finset α) (b : EReal) (f : α → EReal) :
    s.fold (FloatOps.maximumf (F := Ideal) (φ := .f32)) b f = s.fold max b f := rfl

/-! ## The weight matrices, their unit axis summed away -/

theorem wq_apply (l : Fin 256) (h : Fin 128) : val_main_v0 (F := Ideal) x1 (ix2 l h) = x1 (ix3 0 l h) :=
  (val_main_v0_apply x1 (ix2 l h)).trans ((zero_add_sum_one _).trans (congrArg x1 (funext fun a => Fin.ext (by match a with | ⟨0, _⟩ => rfl | ⟨1, _⟩ => rfl | ⟨2, _⟩ => rfl))))

theorem wk_apply (l : Fin 256) (h : Fin 128) : val_main_v2 (F := Ideal) x2 (ix2 l h) = x2 (ix3 0 l h) :=
  (val_main_v2_apply x2 (ix2 l h)).trans ((zero_add_sum_one _).trans (congrArg x2 (funext fun a => Fin.ext (by match a with | ⟨0, _⟩ => rfl | ⟨1, _⟩ => rfl | ⟨2, _⟩ => rfl))))

theorem wv_apply (l j : Fin 256) :
    val_main_v5 (F := Ideal) x3 x4 (ix2 l j) = val_main_v4 (F := Ideal) x3 x4 (ix3 0 l j) :=
  (val_main_v5_apply x3 x4 (ix2 l j)).trans ((zero_add_sum_one _).trans
    (congrArg (val_main_v4 (F := Ideal) x3 x4) (funext fun a => Fin.ext (by match a with | ⟨0, _⟩ => rfl | ⟨1, _⟩ => rfl | ⟨2, _⟩ => rfl))))

/-! ## The projections -/

theorem queries_apply (b : Fin 8) (n : Fin 4096) (h : Fin 128) :
    val_main_v1 (F := Ideal) x0 x1 (ix3 b n h) = ∑ l : Fin 256, x0 (ix3 b n l) * x1 (ix3 0 l h) :=
  (val_main_v1_apply x0 x1 (ix3 b n h)).trans (Finset.sum_congr rfl fun l _ => congrArg₂ (· * ·)
    (congrArg x0 (funext fun a => Fin.ext (by match a with | ⟨0, _⟩ => rfl | ⟨1, _⟩ => rfl | ⟨2, _⟩ => rfl)))
    ((congrArg (val_main_v0 (F := Ideal) x1) (funext fun a => Fin.ext (by match a with | ⟨0, _⟩ => rfl | ⟨1, _⟩ => rfl))).trans (wq_apply x1 l h)))

theorem keys_apply (b : Fin 8) (n : Fin 4096) (h : Fin 128) :
    val_main_v3 (F := Ideal) x0 x2 (ix3 b n h) = ∑ l : Fin 256, x0 (ix3 b n l) * x2 (ix3 0 l h) :=
  (val_main_v3_apply x0 x2 (ix3 b n h)).trans (Finset.sum_congr rfl fun l _ => congrArg₂ (· * ·)
    (congrArg x0 (funext fun a => Fin.ext (by match a with | ⟨0, _⟩ => rfl | ⟨1, _⟩ => rfl | ⟨2, _⟩ => rfl)))
    ((congrArg (val_main_v2 (F := Ideal) x2) (funext fun a => Fin.ext (by match a with | ⟨0, _⟩ => rfl | ⟨1, _⟩ => rfl))).trans (wk_apply x2 l h)))

theorem values_apply (b : Fin 8) (n : Fin 4096) (j : Fin 256) :
    val_main_v6 (F := Ideal) x0 x3 x4 (ix3 b n j)
      = ∑ l : Fin 256, x0 (ix3 b n l) * val_main_v4 (F := Ideal) x3 x4 (ix3 0 l j) :=
  (val_main_v6_apply x0 x3 x4 (ix3 b n j)).trans (Finset.sum_congr rfl fun l _ => congrArg₂ (· * ·)
    (congrArg x0 (funext fun a => Fin.ext (by match a with | ⟨0, _⟩ => rfl | ⟨1, _⟩ => rfl | ⟨2, _⟩ => rfl)))
    ((congrArg (val_main_v5 (F := Ideal) x3 x4) (funext fun a => Fin.ext (by match a with | ⟨0, _⟩ => rfl | ⟨1, _⟩ => rfl))).trans (wv_apply x3 x4 l j)))

/-! ## The scores and their softmax -/

/-- The query row and the key rows of batch `b`, as the specification takes them. -/
abbrev qrow (b : Fin 8) (n : Fin 4096) : Fin 128 → EReal := fun h => ∑ l : Fin 256, x0 (ix3 b n l) * x1 (ix3 0 l h)
abbrev krows (b : Fin 8) : Fin 4096 → Fin 128 → EReal := fun m h => ∑ l : Fin 256, x0 (ix3 b m l) * x2 (ix3 0 l h)

theorem scores_apply (b : Fin 8) (n m : Fin 4096) :
    val_main_v9 (F := Ideal) x0 x1 x2 (ix3 b n m) = Attn.score (qrow x0 x1 b n) (krows x0 x2 b) m := by
  rw [val_main_v9_apply, val_main_v8_apply, val_main_cst_2_apply, Ideal.hostDivf_def, Ideal.ofBits_def, Attn.div_256,
    val_main_v7_apply]
  unfold Attn.score
  refine congrArg (· * Attn.scale) (Finset.sum_congr rfl fun h _ => congrArg₂ (· * ·) ?_ ?_)
  · exact (congrArg (val_main_v1 (F := Ideal) x0 x1) (funext fun a => Fin.ext (by match a with | ⟨0, _⟩ => rfl | ⟨1, _⟩ => rfl | ⟨2, _⟩ => rfl))).trans (queries_apply x0 x1 b n h)
  · exact (congrArg (val_main_v3 (F := Ideal) x0 x2) (funext fun a => Fin.ext (by match a with | ⟨0, _⟩ => rfl | ⟨1, _⟩ => rfl | ⟨2, _⟩ => rfl))).trans (keys_apply x0 x2 b m h)

/-- The row of scores of query row (b, n). -/
abbrev srow (b : Fin 8) (n : Fin 4096) : Fin 4096 → EReal := fun m => val_main_v9 (F := Ideal) x0 x1 x2 (ix3 b n m)

theorem srow_eq (b : Fin 8) (n : Fin 4096) : srow x0 x1 x2 b n = Attn.score (qrow x0 x1 b n) (krows x0 x2 b) :=
  funext fun m => scores_apply x0 x1 x2 b n m

theorem lift_row (b : Fin 8) (n k : Fin 4096) (h : S8x4096x4096.Reduces [2] S8x4096) : h.lift (ix2 b n) k = ix3 b n k :=
  funext fun a => Fin.ext (by match a with | ⟨0, _⟩ => rfl | ⟨1, _⟩ => rfl | ⟨2, _⟩ => rfl)

theorem rowMax_apply (b : Fin 8) (n : Fin 4096) :
    val_main_v12 (F := Ideal) x0 x1 x2 (ix2 b n) = Attn.rowMax (srow x0 x1 x2 b n) := by
  have hR : S8x4096x4096.Reduces [2] S8x4096 := by decide
  have e := Host.reduce_eq_fold_single (FloatOps.maximumf (F := Ideal) (φ := .f32)) (val_main_v9 (F := Ideal) x0 x1 x2)
    (val_main_cst_3 (F := Ideal)) reducesTo_S8x4096x4096_S8x4096_d2 hR h_S_ (ix2 b n)
  rw [fold_maximumf_eq, val_main_cst_3_apply, Ideal.ofBits_def,
    show (val_main_v9 (F := Ideal) x0 x1 x2 ∘ hR.lift (ix2 b n)) = srow x0 x1 x2 b n from
      funext fun k => congrArg (val_main_v9 (F := Ideal) x0 x1 x2) (lift_row b n k hR)] at e
  rw [val_main_v12_apply, val_main_v11_apply, val_main_cst_4_apply, Ideal.maximumf_def, Ideal.ofBits_def]
  unfold val_main_v10 Attn.rowMax
  rw [e]
  rfl

theorem exps_apply (b : Fin 8) (n m : Fin 4096) :
    val_main_v16 (F := Ideal) x0 x1 x2 (ix3 b n m)
      = Ideal.exp (srow x0 x1 x2 b n m - Attn.rowMax (srow x0 x1 x2 b n)) := by
  rw [val_main_v16_apply, val_main_v15_apply, val_main_v14_apply, val_main_v13_apply, Ideal.hostUnary_exp_def,
    Ideal.subf_def,
    show idx_main_v13 (idx_main_v14 (ix3 b n m)) = ix2 b n from funext fun a => Fin.ext (by match a with | ⟨0, _⟩ => rfl | ⟨1, _⟩ => rfl),
    rowMax_apply]

theorem sums_apply (b : Fin 8) (n m : Fin 4096) :
    val_main_v19 (F := Ideal) x0 x1 x2 (ix3 b n m)
      = ∑ m' : Fin 4096, Ideal.exp (srow x0 x1 x2 b n m' - Attn.rowMax (srow x0 x1 x2 b n)) := by
  rw [val_main_v19_apply, val_main_v18_apply,
    show idx_main_v18 (idx_main_v19 (ix3 b n m)) = ix2 b n from funext fun a => Fin.ext (by match a with | ⟨0, _⟩ => rfl | ⟨1, _⟩ => rfl),
    val_main_v17_apply, val_main_cst_5_apply, Ideal.ofBits_def, Ideal.ofBits_zero_f32, zero_add]
  exact Finset.sum_congr rfl fun m' _ =>
    (congrArg (val_main_v16 (F := Ideal) x0 x1 x2) (funext fun a => Fin.ext (by match a with | ⟨0, _⟩ => rfl | ⟨1, _⟩ => rfl | ⟨2, _⟩ => rfl))).trans (exps_apply x0 x1 x2 b n m')

theorem weights_apply (b : Fin 8) (n m : Fin 4096) :
    val_main_v20 (F := Ideal) x0 x1 x2 (ix3 b n m) = Attn.weight (srow x0 x1 x2 b n) m := by
  rw [val_main_v20_apply, Ideal.hostDivf_def, exps_apply, sums_apply]
  rfl

/-! ## The result -/

/-- Entry (b, n, j) of the reference's result is entry (b, n, j) of the attention map, the value weights being the host's
    product of the two low-rank factors. -/
theorem result_apply (b : Fin 8) (n : Fin 4096) (j : Fin 256) :
    val_main_v21 (F := Ideal) x0 x1 x2 x3 x4 (ix3 b n j)
      = Attn.G (fun b n l => x0 (ix3 b n l)) (fun l h => x1 (ix3 0 l h)) (fun l h => x2 (ix3 0 l h))
          (fun l j => val_main_v4 (F := Ideal) x3 x4 (ix3 0 l j)) b n j := by
  rw [val_main_v21_apply]
  unfold Attn.G Attn.entry
  refine Finset.sum_congr rfl fun m _ => congrArg₂ (· * ·) ?_ ?_
  · refine ((congrArg (val_main_v20 (F := Ideal) x0 x1 x2) (funext fun a => Fin.ext (by match a with | ⟨0, _⟩ => rfl | ⟨1, _⟩ => rfl | ⟨2, _⟩ => rfl))).trans (weights_apply x0 x1 x2 b n m)).trans ?_
    rw [srow_eq]
  · exact (congrArg (val_main_v6 (F := Ideal) x0 x3 x4) (funext fun a => Fin.ext (by match a with | ⟨0, _⟩ => rfl | ⟨1, _⟩ => rfl | ⟨2, _⟩ => rfl))).trans (values_apply x0 x3 x4 b m j)

end Cert.ReferenceIdeal.RefValue

end
-- ==== Proof.lean ====
/-
  The kernel and the reference compute the same single-head attention with a low-rank value map.

  Inputs: x : [8, 4096, 256], query and key weights Wq, Wk : [1, 256, 128], and two factors V_down : [1, 256, 128],
  V_up : [1, 128, 256] of the value weights Wv = V_down · V_up : [256, 256], which a host product computes in both
  programs. For every batch b and row n, with q = x_b · Wq, k = x_b · Wk, v = x_b · Wv,

      out[b, n, :] = Σ_m softmax_m( ⟨q_n, k_m⟩ · 2⁻⁸ ) · v_m.

  The reference computes this over whole arrays, dividing the scores by 256. The kernel walks a grid of 8 × 16 points
  (b, qi): at qi = 0 it projects the whole batch to keys and values once and keeps them in two scratch buffers for the
  batch's other fifteen points; every point projects its own 256 query rows, takes their scores against all 4096 keys,
  multiplies them by 2⁻⁸, takes the row softmax and multiplies by the values. On the extended reals the two are one
  function, entry by entry: a change of float format is the identity, a product into a zero accumulator and a host
  contraction are the same finite sum, a sum or a maximum of a row does not depend on how the row is tiled, a sum from
  a zero initial value drops the zero, and dividing by 256 is multiplying by the exact power of two 2⁻⁸ (at the
  infinities too). No step uses that the inputs are finite.

  The modules: Spec (the attention map G and the law for 2⁻⁸), Pieces (what one point leaves in the scratch and the
  output, as values of what it loaded), Payloads (those values entry by entry), Blocks (what each point is handed),
  Carried (the scratch holds the batch's keys and values after every point — induction along the grid — and so each
  output block is a block of G), Final (the blocks tile the result: the array is G), Reference (the reference's run is G),
  and here the five conjuncts. The idealization rewrote no operation of the kernel, so `preserves` is trivial.
-/
import proofs.«133891_j27358941675773_1_alg».proof.Defs
import proofs.«133891_j27358941675773_1_alg».proof.Proof.Gen.Kernel
import proofs.«133891_j27358941675773_1_alg».proof.Proof.Gen.Kernel.Skeleton
import proofs.«133891_j27358941675773_1_alg».proof.Proof.Gen.Kernel.Launch
import proofs.«133891_j27358941675773_1_alg».proof.Proof.Gen.Kernel.Points
import proofs.«133891_j27358941675773_1_alg».proof.Proof.Gen.Kernel.Frame
import proofs.«133891_j27358941675773_1_alg».proof.Proof.Gen.KernelIdeal
import proofs.«133891_j27358941675773_1_alg».proof.Proof.Gen.KernelIdeal.Skeleton
import proofs.«133891_j27358941675773_1_alg».proof.Proof.Gen.KernelIdeal.Launch
import proofs.«133891_j27358941675773_1_alg».proof.Proof.Gen.KernelIdeal.Points
import proofs.«133891_j27358941675773_1_alg».proof.Proof.Gen.KernelIdeal.Frame
import proofs.«133891_j27358941675773_1_alg».proof.Proof.Gen.ReferenceIdeal
import proofs.«133891_j27358941675773_1_alg».proof.Proof.Gen.Pre_finite_inputs
import proofs.«133891_j27358941675773_1_alg».proof.Proof.Gen.KernelIdeal.Value
import proofs.«133891_j27358941675773_1_alg».proof.Proof.Gen.ReferenceIdeal.Run
import proofs.«133891_j27358941675773_1_alg».proof.Proof.Gen.ReferenceIdeal.Read
import proofs.«133891_j27358941675773_1_alg».proof.Proof.Final
import proofs.«133891_j27358941675773_1_alg».proof.Proof.Reference
import Idealize.ShloMosaic.Adequacy
import Idealize.ShloMosaic.Init

noncomputable section

namespace Cert.Proof

open Idealize.ShloMosaic Idealize.SL.Sem Idealize.ShloMosaic.ValueIdx

/-- The kernel as printed runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories agreeing on the arguments, the kernel's result array and the reference's both
    end at the attention map of the arguments: the kernel's by the blocks its points write back, the reference's by its
    run read entry by entry; the value weights are, in both, the same host product of the two low-rank factors. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v21 m' c = Cert.KernelIdeal.Final.result m c
  rw [Cert.ReferenceIdeal.Read.val_main_v21_eq, Cert.KernelIdeal.Final.result_eq, (hagree c).1, (hagree c).2.1,
    (hagree c).2.2.1, (hagree c).2.2.2.1, (hagree c).2.2.2.2]
  funext i
  obtain ⟨b, n, j, rfl⟩ : ∃ (b : Fin 8) (n : Fin 4096) (j : Fin 256), i = ix3 b n j := ⟨i 0, i 1, i 2, eq_ix3 i⟩
  exact Cert.ReferenceIdeal.RefValue.result_apply _ _ _ _ _ b n j

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
